-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x200x1024 : Shape := ⟨3, ![256, 200, 1024]⟩
abbrev S_ : Shape := ⟨0, ![]⟩

class Facts : Prop where
  bcast_S_S256x200x1024 : S_.BroadcastsInDim S256x200x1024 (![] : Fin 0 → Fin S256x200x1024.rank)
  reducesTo_S256x200x1024_S_d0_1_2 : S256x200x1024.ReducesTo [0, 1, 2] S_
  h_S_ : 0 < S_.numel

variable [Facts]

def fn {F : FTy → Type} [FloatOps F] (main_arg0 : FVec F S256x200x1024 .f32) : IVec S_ 1 :=
  let main_v0 : FVec F S256x200x1024 .f32 := Host.absf main_arg0
  let main_cst : FVec F S_ .f32 := constant S_ .f32 0x7F800000#32
  let main_v1 : FVec F S256x200x1024 .f32 := broadcastInDim S256x200x1024 ![] bcast_S_S256x200x1024 main_cst
  let main_v2 : IVec S256x200x1024 1 := cmpf .olt main_v0 main_v1
  let main_c : IVec S_ 1 := constantI S_ 1 1#1
  let main_v3 : IVec S_ 1 := (fun x v => Host.reduce IntOp.andi x v reducesTo_S256x200x1024_S_d0_1_2 h_S_) main_v2 main_c
  main_v3
-- ==== Kernel.lean ====
abbrev S256x200x1024 : Shape := ⟨3, ![256, 200, 1024]⟩
abbrev S4x200x1024 : Shape := ⟨3, ![4, 200, 1024]⟩
abbrev S4x200 : Shape := ⟨2, ![4, 200]⟩
abbrev S4x200x200 : Shape := ⟨3, ![4, 200, 200]⟩
abbrev S4x200x1 : Shape := ⟨3, ![4, 200, 1]⟩
abbrev S4x1x200 : Shape := ⟨3, ![4, 1, 200]⟩

abbrev nBuf : Space → Nat
  | .hbm => 2
  | .vmem => 4
  | .smem => 0
  | _ => 0

abbrev bufTy : (tb : Table) → Fin (tcTables nBuf tb) → BufTy
  | .hbm, ⟨0, _⟩ => ⟨S256x200x1024, .f32⟩
  | .hbm, ⟨1, _⟩ => ⟨S256x200x1024, .f32⟩
  | .local _ .vmem, ⟨0, _⟩ => ⟨S4x200x1024, .f32⟩
  | .local _ .vmem, ⟨1, _⟩ => ⟨S4x200x1024, .f32⟩
  | .local _ .vmem, ⟨2, _⟩ => ⟨S4x200x1024, .f32⟩
  | .local _ .vmem, ⟨3, _⟩ => ⟨S4x200x1024, .f32⟩
  | _, _ => ⟨S256x200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x200x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x200x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x200x1024_S4x200x1024_0_0_0 : ∀ a, (![0, 0, 0] : Fin 3 → Nat) a + S4x200x1024.size a ≤ S4x200x1024.size a
  h_S4x200x1024 : 0 < S4x200x1024.numel
  bitsLt_bf16_f32 : FTy.bits .bf16 < FTy.bits .f32
  reduces_S4x200x1024_S4x200 : S4x200x1024.Reduces [2] S4x200
  shapeCasts_S4x200_S4x200x1 : S4x200.ShapeCasts S4x200x1
  shapeCasts_S4x200_S4x1x200 : S4x200.ShapeCasts S4x1x200
  broadcasts_S4x200x1_S4x200x200 : S4x200x1.Broadcasts S4x200x200
  broadcasts_S4x1x200_S4x200x200 : S4x1x200.Broadcasts S4x200x200
  reduces_S4x200x200_S4x200 : S4x200x200.Reduces [2] S4x200
  dot_S4x200x1024_S4x200x1024_S4x200x200_2_2_1_1_0_0_wf : DotDims.WF S4x200x1024 S4x200x1024 S4x200x200 [2] [2] [1] [1] [0] [0]
  dot_S4x200x200_S4x200x1024_S4x200x1024_2_1_1_2_0_0_wf : DotDims.WF S4x200x200 S4x200x1024 S4x200x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x200x1024.size a ≤ S256x200x1024.size a
  hwx0_0 : ∀ i : grid0.Coords, EltTy.bits .f32 = 32 ∨ (Rect.block (s := S256x200x1024) S4x200x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x200x1024.size a ≤ S256x200x1024.size a
  hwx0_1 : ∀ i : grid0.Coords, EltTy.bits .f32 = 32 ∨ (Rect.block (s := S256x200x1024) S4x200x1024.size (cc0_transform_1 i) (hinb0_1 i)).WholeWords (EltTy.packing .f32)

variable [Facts₀]

def dot_S4x200x1024_S4x200x1024_S4x200x200_2_2_1_1_0_0 : DotDims S4x200x1024 S4x200x1024 S4x200x200 where
  lhsContracting := [2]
  rhsContracting := [2]
  lhsNonContracting := [1]
  rhsNonContracting := [1]
  lhsBatch := [0]
  rhsBatch := [0]
  wf := dot_S4x200x1024_S4x200x1024_S4x200x200_2_2_1_1_0_0_wf
def dot_S4x200x200_S4x200x1024_S4x200x1024_2_1_1_2_0_0 : DotDims S4x200x200 S4x200x1024 S4x200x1024 where
  lhsContracting := [2]
  rhsContracting := [1]
  lhsNonContracting := [1]
  rhsNonContracting := [2]
  lhsBatch := [0]
  rhsBatch := [0]
  wf := dot_S4x200x200_S4x200x1024_S4x200x1024_2_1_1_2_0_0_wf

abbrev win0_0 : Pipeline.Window sig grid0 :=
  Pipeline.Window.ofSpec (Memref.whole main_arg0) S4x200x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x200x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x200x1024 : Shape := ⟨3, ![256, 200, 1024]⟩
abbrev S_ : Shape := ⟨0, ![]⟩
abbrev S256x200 : Shape := ⟨2, ![256, 200]⟩
abbrev S256x200x200 : Shape := ⟨3, ![256, 200, 200]⟩
abbrev S256x200x1 : Shape := ⟨3, ![256, 200, 1]⟩
abbrev S256x1x200 : Shape := ⟨3, ![256, 1, 200]⟩

abbrev nBuf : Space → Nat
  | .hbm => 31
  | .vmem => 0
  | .smem => 0
  | _ => 0

abbrev bufTy : (tb : Table) → Fin (tcTables nBuf tb) → BufTy
  | .hbm, ⟨0, _⟩ => ⟨S256x200x1024, .f32⟩
  | .hbm, ⟨1, _⟩ => ⟨S256x200x1024, .f32⟩
  | .hbm, ⟨2, _⟩ => ⟨S_, .f32⟩
  | .hbm, ⟨3, _⟩ => ⟨S256x200, .f32⟩
  | .hbm, ⟨4, _⟩ => ⟨S256x200, .f32⟩
  | .hbm, ⟨5, _⟩ => ⟨S256x200x200, .f32⟩
  | .hbm, ⟨6, _⟩ => ⟨S256x200x1, .f32⟩
  | .hbm, ⟨7, _⟩ => ⟨S256x1x200, .f32⟩
  | .hbm, ⟨8, _⟩ => ⟨S256x200x200, .f32⟩
  | .hbm, ⟨9, _⟩ => ⟨S256x200x200, .f32⟩
  | .hbm, ⟨10, _⟩ => ⟨S256x200x200, .f32⟩
  | .hbm, ⟨11, _⟩ => ⟨S_, .f32⟩
  | .hbm, ⟨12, _⟩ => ⟨S256x200x200, .f32⟩
  | .hbm, ⟨13, _⟩ => ⟨S256x200x200, .f32⟩
  | .hbm, ⟨14, _⟩ => ⟨S256x200x200, .f32⟩
  | .hbm, ⟨15, _⟩ => ⟨S_, .f32⟩
  | .hbm, ⟨16, _⟩ => ⟨S256x200, .f32⟩
  | .hbm, ⟨17, _⟩ => ⟨S_, .f32⟩
  | .hbm, ⟨18, _⟩ => ⟨S256x200, .f32⟩
  | .hbm, ⟨19, _⟩ => ⟨S256x200, .f32⟩
  | .hbm, ⟨20, _⟩ => ⟨S256x200x1, .f32⟩
  | .hbm, ⟨21, _⟩ => ⟨S256x200x200, .f32⟩
  | .hbm, ⟨22, _⟩ => ⟨S256x200x200, .f32⟩
  | .hbm, ⟨23, _⟩ => ⟨S256x200x200, .f32⟩
  | .hbm, ⟨24, _⟩ => ⟨S_, .f32⟩
  | .hbm, ⟨25, _⟩ => ⟨S256x200, .f32⟩
  | .hbm, ⟨26, _⟩ => ⟨S256x200x1, .f32⟩
  | .hbm, ⟨27, _⟩ => ⟨S256x200x200, .f32⟩
  | .hbm, ⟨28, _⟩ => ⟨S256x200x200, .f32⟩
  | .hbm, ⟨29, _⟩ => ⟨S256x200x1024, .f32⟩
  | .hbm, ⟨30, _⟩ => ⟨S256x200x1024, .f32⟩
  | _, _ => ⟨S256x200x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S256x200x1024_S256x200_d2 : S256x200x1024.ReducesTo [2] S256x200
  h_S_ : 0 < S_.numel
  bcast_S256x200_S256x200x1_0_1 : S256x200.BroadcastsInDim S256x200x1 (![0, 1] : Fin 2 → Fin S256x200x1.rank)
  bcast_S256x200_S256x1x200_0_2 : S256x200.BroadcastsInDim S256x1x200 (![0, 2] : Fin 2 → Fin S256x1x200.rank)
  bcast_S256x200x1_S256x200x200_0_1_2 : S256x200x1.BroadcastsInDim S256x200x200 (![0, 1, 2] : Fin 3 → Fin S256x200x200.rank)
  bcast_S256x1x200_S256x200x200_0_1_2 : S256x1x200.BroadcastsInDim S256x200x200 (![0, 1, 2] : Fin 3 → Fin S256x200x200.rank)
  bcast_S_S256x200x200 : S_.BroadcastsInDim S256x200x200 (![] : Fin 0 → Fin S256x200x200.rank)
  reducesTo_S256x200x200_S256x200_d2 : S256x200x200.ReducesTo [2] S256x200
  bcast_S_S256x200 : S_.BroadcastsInDim S256x200 (![] : Fin 0 → Fin S256x200.rank)
  dot_S256x200x1024_S256x200x1024_S256x200x200_2_2_1_1_0_0_wf : DotDims.WF S256x200x1024 S256x200x1024 S256x200x200 [2] [2] [1] [1] [0] [0]
  dot_S256x200x200_S256x200x1024_S256x200x1024_2_1_1_2_0_0_wf : DotDims.WF S256x200x200 S256x200x1024 S256x200x1024 [2] [1] [1] [2] [0] [0]

variable [Facts₀]

def dot_S256x200x1024_S256x200x1024_S256x200x200_2_2_1_1_0_0 : DotDims S256x200x1024 S256x200x1024 S256x200x200 where
  lhsContracting := [2]
  rhsContracting := [2]
  lhsNonContracting := [1]
  rhsNonContracting := [1]
  lhsBatch := [0]
  rhsBatch := [0]
  wf := dot_S256x200x1024_S256x200x1024_S256x200x200_2_2_1_1_0_0_wf
def dot_S256x200x200_S256x200x1024_S256x200x1024_2_1_1_2_0_0 : DotDims S256x200x200 S256x200x1024 S256x200x1024 where
  lhsContracting := [2]
  rhsContracting := [1]
  lhsNonContracting := [1]
  rhsNonContracting := [2]
  lhsBatch := [0]
  rhsBatch := [0]
  wf := dot_S256x200x200_S256x200x1024_S256x200x1024_2_1_1_2_0_0_wf

class Facts : Prop extends Facts₀ where

variable [Facts]
-- ==== Proof.Attention.lean ====
/-
  Cosine-similarity self-attention with a residual, on ONE batch element, over the extended reals.

  A batch element is 200 rows of 1024 features. Row i has Euclidean norm n i; rows i and j have inner product
  g i j; their similarity is g i j divided by n i · n j, the divisor floored at a small positive constant (both
  programs carry the same 32-bit word for it, so its value is never needed). Row i of the result is the
  softmax, over j, of the similarities, applied to the rows, plus row i itself:

      out i l = (Σ j, w i j · X j l) + X i l,   w i j = e i j / Σ j', e i j',   e i j = exp (s i j − M i),

  where M i is the largest similarity in row i (a fold of max from the word of −∞, as both programs compute it).
  The whole array is this function applied to each batch element separately: entry (b, i, l) depends on batch
  element b only. That is why any tiling of the batch axis computes the same array.
-/
import Idealize.ShloMosaic.PureOps.Ideal
import Idealize.ShloMosaic.PureOps.Ideal.Laws
import Idealize.ShloMosaic.Lib.ValueIdx

noncomputable section

open scoped BigOperators

namespace Cert.Attention

open Idealize.ShloMosaic Idealize.ShloMosaic.ValueIdx

/-- One batch element: 200 rows of 1024 features. -/
abbrev Slab : Type := Fin 200 → Fin 1024 → EReal

/-- The floor of the cosine denominator: the extended real that the word both programs carry denotes. -/
def floor : EReal := Ideal.ofBits .f32 0x322BCC77#32

/-- The value a row maximum is folded from: what the word of −∞ denotes. -/
def bottom : EReal := Ideal.ofBits .f32 0xFF800000#32

/-- The Euclidean norm of row i. -/
def norm (X : Slab) (i : Fin 200) : EReal := Ideal.sqrt (∑ l : Fin 1024, X i l * X i l)

/-- The inner product of rows i and j. -/
def gram (X : Slab) (i j : Fin 200) : EReal := ∑ l : Fin 1024, X i l * X j l

/-- The cosine similarity of rows i and j, the product of norms floored. -/
def sim (X : Slab) (i j : Fin 200) : EReal := Ideal.div (gram X i j) (max (norm X i * norm X j) floor)

/-- The largest similarity in row i. -/
def rowMax (X : Slab) (i : Fin 200) : EReal :=
  max bottom ((Finset.univ : Finset (Fin 200)).fold max bottom (fun j => sim X i j))

/-- The shifted exponential of a similarity. -/
def expo (X : Slab) (i j : Fin 200) : EReal := Ideal.exp (sim X i j - rowMax X i)

/-- The softmax denominator of row i. -/
def total (X : Slab) (i : Fin 200) : EReal := ∑ j : Fin 200, expo X i j

/-- The softmax weight row i gives row j. -/
def weight (X : Slab) (i j : Fin 200) : EReal := Ideal.div (expo X i j) (total X i)

/-- Row i of the result at feature l: the weighted sum of the rows, plus the row itself. -/
def out (X : Slab) (i : Fin 200) (l : Fin 1024) : EReal := (∑ j : Fin 200, weight X i j * X j l) + X i l

/-- Batch element b of an array of B batch elements. -/
def slab {B : Nat} (x : (⟨3, ![B, 200, 1024]⟩ : Shape).Idx → EReal) (b : Fin B) : Slab := fun r l => x (ix3 b r l)

/-- The whole result array: entry (b, i, l) is out of batch element b at (i, l). -/
def result {B : Nat} (x : (⟨3, ![B, 200, 1024]⟩ : Shape).Idx → EReal) : (⟨3, ![B, 200, 1024]⟩ : Shape).Idx → EReal :=
  fun I => out (slab x (I 0)) (I 1) (I 2)

theorem result_ix3 {B : Nat} (x : (⟨3, ![B, 200, 1024]⟩ : Shape).Idx → EReal) (b : Fin B) (i : Fin 200) (l : Fin 1024) :
    result x (ix3 b i l) = out (slab x b) i l := rfl

end Cert.Attention

end
-- ==== Proof.LibKeepdims.lean ====
/-
  Two layout readings every kernel with a keepdims-style broadcast meets: a rank-2 array [a, b] re-laid as a
  column [a, b, 1] or as a row [a, 1, b] by a shape cast and then broadcast along the new unit axis to
  [a, b, c] or [a, c, b]. Read at an index given by coordinates, the result is the array at the coordinates
  that survive: (p, i, j) ↦ v (p, i) for the column form and (p, i, j) ↦ v (p, j) for the row form.
  The extents are arbitrary; the shape-cast step is the equality of row-major positions, the broadcast step
  reads coordinate 0 on the unit axis.
-/
import Idealize.ShloMosaic.Lib.Pipeline.Value
import Idealize.ShloMosaic.Lib.ValueIdx

namespace Cert.Lib.Keepdims

open Idealize.ShloMosaic Idealize.ShloMosaic.ValueIdx

variable {α : Type}

/-- A rank-2 array cast to a trailing unit axis, [a, b] → [a, b, 1], and broadcast along it to [a, b, c], reads
    at (p, i, j) the array at (p, i). -/
theorem castCol_broadcast_apply {a b c : ℕ} (v : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (p : Fin a) (i : Fin b) (j : Fin c) :
    broadcastTo ⟨3, ![a, b, c]⟩ (shapeCast ⟨3, ![a, b, 1]⟩ v h1) h2 (ix3 p i j) = v (ix2 p i) := by
  refine (broadcastTo_apply _ h2 (ix3 p i j) (ix3 p i (0 : Fin 1)) fun ax => ?_).trans ?_
  · match ax with
    | ⟨0, _⟩ =>
      show p.val = if a = 1 then 0 else p.val
      split
      · have := p.isLt; omega
      · rfl
    | ⟨1, _⟩ =>
      show i.val = if b = 1 then 0 else i.val
      split
      · have := i.isLt; omega
      · rfl
    | ⟨2, _⟩ => exact (if_pos rfl).symm
  · refine shapeCast_apply v h1 (ix3 p i (0 : Fin 1)) (ix2 p i) ?_
    rw [Shape.rowMajor_val_two, Shape.rowMajor_val_three]
    show p.val * b + i.val = (p.val * b + i.val) * 1 + 0
    omega

/-- A rank-2 array cast to a middle unit axis, [a, b] → [a, 1, b], and broadcast along it to [a, c, b], reads
    at (p, i, j) the array at (p, j). -/
theorem castRow_broadcast_apply {a b c : ℕ} (v : (⟨2, ![a, b]⟩ : Shape).Idx → α)
    (h1 : (⟨2, ![a, b]⟩ : Shape).ShapeCasts ⟨3, ![a, 1, b]⟩)
    (h2 : (⟨3, ![a, 1, b]⟩ : Shape).Broadcasts ⟨3, ![a, c, b]⟩)
    (p : Fin a) (i : Fin c) (j : Fin b) :
    broadcastTo ⟨3, ![a, c, b]⟩ (shapeCast ⟨3, ![a, 1, b]⟩ v h1) h2 (ix3 p i j) = v (ix2 p j) := by
  refine (broadcastTo_apply _ h2 (ix3 p i j) (ix3 p (0 : Fin 1) j) fun ax => ?_).trans ?_
  · match ax with
    | ⟨0, _⟩ =>
      show p.val = if a = 1 then 0 else p.val
      split
      · have := p.isLt; omega
      · rfl
    | ⟨1, _⟩ => exact (if_pos rfl).symm
    | ⟨2, _⟩ =>
      show j.val = if b = 1 then 0 else j.val
      split
      · have := j.isLt; omega
      · rfl
  · refine shapeCast_apply v h1 (ix3 p (0 : Fin 1) j) (ix2 p j) ?_
    rw [Shape.rowMajor_val_two, Shape.rowMajor_val_three]
    show p.val * b + j.val = (p.val * 1 + 0) * b + j.val
    rw [Nat.mul_one, Nat.add_zero]

end Cert.Lib.Keepdims
-- ==== Proof.BodyAttention.lean ====
/-
  What the kernel body computes from one block. A block holds four batch elements, each 200 rows of 1024
  features. The body's stored value, read at (b, i, l), is cosine-similarity attention (Attention.out) of the
  block's batch element b at (i, l): nothing in it mixes two batch elements.

  The body is a chain of stages. Read at an index each stage is the matching function of the specification:
  a sum over the last axis is a finite sum over that axis's coordinate, a maximum over the last axis the fold of
  max over it, a matrix product into a zero accumulator the sum over the contracted coordinate of the products, a
  norm column or row re-laid by a shape cast and a broadcast the norm at the surviving coordinates, and the
  narrowing to sixteen bits before each product the identity on extended reals.
-/
import proofs.«156488_j76398878261339_1_alg».proof.Proof.Gen.KernelIdeal.Skeleton
import proofs.«156488_j76398878261339_1_alg».proof.Proof.Attention
import proofs.«156488_j76398878261339_1_alg».proof.Proof.LibKeepdims
import Idealize.ShloMosaic.PureOps.Ideal.Laws
import Idealize.ShloMosaic.Lib.ValueIdx

noncomputable section

open scoped BigOperators

namespace Cert.KernelIdeal.Body

open Cert.KernelIdeal Cert.KernelIdeal.Gen Idealize.ShloMosaic Idealize.ShloMosaic.ValueIdx

/-! ## The two matrix products' operand indices -/

/-- The Gram product: rows against rows, contracted over the features, one product per batch element. -/
abbrev gramDims := dot_S4x200x1024_S4x200x1024_S4x200x200_2_2_1_1_0_0
/-- The mixing product: weights against rows, contracted over the rows, one product per batch element. -/
abbrev mixDims := dot_S4x200x200_S4x200x1024_S4x200x1024_2_1_1_2_0_0

theorem gram_lhs0 (o : S4x200x200.Idx) (q : gramDims.contr.Idx) : (gramDims.lhsIdx o q 0).val = (o 0).val := by
  unfold DotDims.lhsIdx
  rw [dif_pos (show (0 : Fin S4x200x1024.rank) ∈ gramDims.lhsBatch by decide)]
  rfl
theorem gram_lhs1 (o : S4x200x200.Idx) (q : gramDims.contr.Idx) : (gramDims.lhsIdx o q 1).val = (o 1).val := by
  unfold DotDims.lhsIdx
  rw [dif_neg (show ¬(1 : Fin S4x200x1024.rank) ∈ gramDims.lhsBatch by decide),
    dif_pos (show (1 : Fin S4x200x1024.rank) ∈ gramDims.lhsNonContracting by decide)]
  rfl
theorem gram_lhs2 (o : S4x200x200.Idx) (q : gramDims.contr.Idx) : (gramDims.lhsIdx o q 2).val = (q ⟨0, by decide⟩).val :=
  gramDims.lhsIdx_val_of_single rfl o q
theorem gram_rhs0 (o : S4x200x200.Idx) (q : gramDims.contr.Idx) : (gramDims.rhsIdx o q 0).val = (o 0).val := by
  unfold DotDims.rhsIdx
  rw [dif_pos (show (0 : Fin S4x200x1024.rank) ∈ gramDims.rhsBatch by decide)]
  rfl
theorem gram_rhs1 (o : S4x200x200.Idx) (q : gramDims.contr.Idx) : (gramDims.rhsIdx o q 1).val = (o 2).val := by
  unfold DotDims.rhsIdx
  rw [dif_neg (show ¬(1 : Fin S4x200x1024.rank) ∈ gramDims.rhsBatch by decide),
    dif_pos (show (1 : Fin S4x200x1024.rank) ∈ gramDims.rhsNonContracting by decide)]
  rfl
theorem gram_rhs2 (o : S4x200x200.Idx) (q : gramDims.contr.Idx) : (gramDims.rhsIdx o q 2).val = (q ⟨0, by decide⟩).val :=
  gramDims.rhsIdx_val_of_single rfl o q

theorem mix_lhs0 (o : S4x200x1024.Idx) (q : mixDims.contr.Idx) : (mixDims.lhsIdx o q 0).val = (o 0).val := by
  unfold DotDims.lhsIdx
  rw [dif_pos (show (0 : Fin S4x200x200.rank) ∈ mixDims.lhsBatch by decide)]
  rfl
theorem mix_lhs1 (o : S4x200x1024.Idx) (q : mixDims.contr.Idx) : (mixDims.lhsIdx o q 1).val = (o 1).val := by
  unfold DotDims.lhsIdx
  rw [dif_neg (show ¬(1 : Fin S4x200x200.rank) ∈ mixDims.lhsBatch by decide),
    dif_pos (show (1 : Fin S4x200x200.rank) ∈ mixDims.lhsNonContracting by decide)]
  rfl
theorem mix_lhs2 (o : S4x200x1024.Idx) (q : mixDims.contr.Idx) : (mixDims.lhsIdx o q 2).val = (q ⟨0, by decide⟩).val :=
  mixDims.lhsIdx_val_of_single rfl o q
theorem mix_rhs0 (o : S4x200x1024.Idx) (q : mixDims.contr.Idx) : (mixDims.rhsIdx o q 0).val = (o 0).val := by
  unfold DotDims.rhsIdx
  rw [dif_pos (show (0 : Fin S4x200x1024.rank) ∈ mixDims.rhsBatch by decide)]
  rfl
theorem mix_rhs1 (o : S4x200x1024.Idx) (q : mixDims.contr.Idx) : (mixDims.rhsIdx o q 1).val = (q ⟨0, by decide⟩).val :=
  mixDims.rhsIdx_val_of_single rfl o q
theorem mix_rhs2 (o : S4x200x1024.Idx) (q : mixDims.contr.Idx) : (mixDims.rhsIdx o q 2).val = (o 2).val := by
  unfold DotDims.rhsIdx
  rw [dif_neg (show ¬(2 : Fin S4x200x1024.rank) ∈ mixDims.rhsBatch by decide),
    dif_pos (show (2 : Fin S4x200x1024.rank) ∈ mixDims.rhsNonContracting by decide)]
  rfl

/-! ## The non-pointwise operations read at an index -/

/-- The Gram product into a zero accumulator at (b, i, j): the inner product of rows i and j of batch element b. -/
theorem gramProduct_apply (a : FVec Ideal S4x200x1024 .bf16) (b : Fin 4) (i j : Fin 200) :
    matmul gramDims none a a (constant (F := Ideal) S4x200x200 .f32 0x00000000#32) (ix3 b i j)
      = ∑ l : Fin 1024, a (ix3 b i l) * a (ix3 b j l) := by
  refine (Ideal.matmul_constant_zero_apply gramDims none a a (ix3 b i j)).trans ?_
  rw [← Equiv.sum_comp (contrEquiv1 gramDims 1024 rfl rfl).symm]
  refine Finset.sum_congr rfl fun k _ => ?_
  have hk := contrEquiv1_symm_val gramDims 1024 rfl rfl k
  have el : gramDims.lhsIdx (ix3 b i j) ((contrEquiv1 gramDims 1024 rfl rfl).symm k) = ix3 b i k :=
    funext fun ax => Fin.ext (by
      match ax with
      | ⟨0, _⟩ => exact gram_lhs0 _ _
      | ⟨1, _⟩ => exact gram_lhs1 _ _
      | ⟨2, _⟩ => exact (gram_lhs2 _ _).trans hk)
  have er : gramDims.rhsIdx (ix3 b i j) ((contrEquiv1 gramDims 1024 rfl rfl).symm k) = ix3 b j k :=
    funext fun ax => Fin.ext (by
      match ax with
      | ⟨0, _⟩ => exact gram_rhs0 _ _
      | ⟨1, _⟩ => exact gram_rhs1 _ _
      | ⟨2, _⟩ => exact (gram_rhs2 _ _).trans hk)
  rw [el, er]

/-- The mixing product into a zero accumulator at (b, i, l): the weights of row i against feature l of every row. -/
theorem mixProduct_apply (w : FVec Ideal S4x200x200 .bf16) (a : FVec Ideal S4x200x1024 .bf16) (b : Fin 4) (i : Fin 200)
    (l : Fin 1024) :
    matmul mixDims none w a (constant (F := Ideal) S4x200x1024 .f32 0x00000000#32) (ix3 b i l)
      = ∑ j : Fin 200, w (ix3 b i j) * a (ix3 b j l) := by
  refine (Ideal.matmul_constant_zero_apply mixDims none w a (ix3 b i l)).trans ?_
  rw [← Equiv.sum_comp (contrEquiv1 mixDims 200 rfl rfl).symm]
  refine Finset.sum_congr rfl fun k _ => ?_
  have hk := contrEquiv1_symm_val mixDims 200 rfl rfl k
  have el : mixDims.lhsIdx (ix3 b i l) ((contrEquiv1 mixDims 200 rfl rfl).symm k) = ix3 b i k :=
    funext fun ax => Fin.ext (by
      match ax with
      | ⟨0, _⟩ => exact mix_lhs0 _ _
      | ⟨1, _⟩ => exact mix_lhs1 _ _
      | ⟨2, _⟩ => exact (mix_lhs2 _ _).trans hk)
  have er : mixDims.rhsIdx (ix3 b i l) ((contrEquiv1 mixDims 200 rfl rfl).symm k) = ix3 b k l :=
    funext fun ax => Fin.ext (by
      match ax with
      | ⟨0, _⟩ => exact mix_rhs0 _ _
      | ⟨1, _⟩ => exact (mix_rhs1 _ _).trans hk
      | ⟨2, _⟩ => exact mix_rhs2 _ _)
  rw [el, er]

/-- A sum over the features at (b, i). -/
theorem sumFeatures_apply (s : FVec Ideal S4x200x1024 .f32) (b : Fin 4) (i : Fin 200) :
    multiReduction (F := Ideal) .add [2] S4x200 s 0x00000000#32 reduces_S4x200x1024_S4x200 (.inl rfl) rfl (ix2 b i)
      = ∑ l : Fin 1024, s (ix3 b i l) := by
  refine (Ideal.multiReduction_add_single s _ reduces_S4x200x1024_S4x200 _ _ (ix2 b i)).trans ?_
  refine Finset.sum_congr rfl fun k _ => ?_
  exact congrArg s (funext fun ax => Fin.ext (by match ax with | ⟨0, _⟩ => rfl | ⟨1, _⟩ => rfl | ⟨2, _⟩ => rfl))

/-- A sum over the columns of a 200 × 200 matrix at (b, i). -/
theorem sumColumns_apply (s : FVec Ideal S4x200x200 .f32) (b : Fin 4) (i : Fin 200) :
    multiReduction (F := Ideal) .add [2] S4x200 s 0x00000000#32 reduces_S4x200x200_S4x200 (.inl rfl) rfl (ix2 b i)
      = ∑ j : Fin 200, s (ix3 b i j) := by
  refine (Ideal.multiReduction_add_single s _ reduces_S4x200x200_S4x200 _ _ (ix2 b i)).trans ?_
  refine Finset.sum_congr rfl fun k _ => ?_
  exact congrArg s (funext fun ax => Fin.ext (by match ax with | ⟨0, _⟩ => rfl | ⟨1, _⟩ => rfl | ⟨2, _⟩ => rfl))

/-- A maximum over the columns of a 200 × 200 matrix at (b, i): the fold of max from what the word of −∞ denotes. -/
theorem maxColumns_apply (s : FVec Ideal S4x200x200 .f32) (b : Fin 4) (i : Fin 200) :
    multiReduction (F := Ideal) .maximumf [2] S4x200 s 0xFF800000#32 reduces_S4x200x200_S4x200 (.inl rfl) rfl (ix2 b i)
      = (Finset.univ : Finset (Fin 200)).fold max Attention.bottom (fun j => s (ix3 b i j)) := by
  refine (Ideal.multiReduction_maximumf_single s _ reduces_S4x200x200_S4x200 _ _ (ix2 b i)).trans ?_
  show (Finset.univ : Finset (Fin 200)).fold max Attention.bottom (fun k => s (reduces_S4x200x200_S4x200.lift (ix2 b i) k)) = _
  refine Finset.fold_congr fun k _ => ?_
  exact congrArg s (funext fun ax => Fin.ext (by match ax with | ⟨0, _⟩ => rfl | ⟨1, _⟩ => rfl | ⟨2, _⟩ => rfl))

/-! ## The body's stages, in the order it computes them -/

/-- The norm of every row. -/
def norms (x0 : FVec Ideal S4x200x1024 .f32) : FVec Ideal S4x200 .f32 :=
  sqrt (multiReduction .add [2] S4x200 (mulf x0 x0) 0x00000000#32 reduces_S4x200x1024_S4x200 (.inl rfl) rfl)

/-- The inner product of every two rows of a batch element. -/
def grams (x0 : FVec Ideal S4x200x1024 .f32) : FVec Ideal S4x200x200 .f32 :=
  matmul gramDims none (truncf .bf16 x0 bitsLt_bf16_f32) (truncf .bf16 x0 bitsLt_bf16_f32) (constant S4x200x200 .f32 0x00000000#32)

/-- The cosine similarities. -/
def sims (x0 : FVec Ideal S4x200x1024 .f32) : FVec Ideal S4x200x200 .f32 :=
  divf (grams x0)
    (maximumf
      (mulf (broadcastTo S4x200x200 (shapeCast S4x200x1 (norms x0) shapeCasts_S4x200_S4x200x1) broadcasts_S4x200x1_S4x200x200)
        (broadcastTo S4x200x200 (shapeCast S4x1x200 (norms x0) shapeCasts_S4x200_S4x1x200) broadcasts_S4x1x200_S4x200x200))
      (broadcast S4x200x200 (Scalar.ofBits .f32 0x322BCC77#32)))

/-- The largest similarity of every row. -/
def maxes (x0 : FVec Ideal S4x200x1024 .f32) : FVec Ideal S4x200 .f32 :=
  maximumf (broadcast S4x200 (Scalar.ofBits .f32 0xFF800000#32))
    (multiReduction .maximumf [2] S4x200 (sims x0) 0xFF800000#32 reduces_S4x200x200_S4x200 (.inl rfl) rfl)

/-- The shifted exponentials. -/
def expos (x0 : FVec Ideal S4x200x1024 .f32) : FVec Ideal S4x200x200 .f32 :=
  exp (subf (sims x0)
    (broadcastTo S4x200x200 (shapeCast S4x200x1 (maxes x0) shapeCasts_S4x200_S4x200x1) broadcasts_S4x200x1_S4x200x200))

/-- The softmax denominators. -/
def totals (x0 : FVec Ideal S4x200x1024 .f32) : FVec Ideal S4x200 .f32 :=
  multiReduction .add [2] S4x200 (expos x0) 0x00000000#32 reduces_S4x200x200_S4x200 (.inl rfl) rfl

/-- The softmax weights. -/
def weights (x0 : FVec Ideal S4x200x1024 .f32) : FVec Ideal S4x200x200 .f32 :=
  divf (expos x0)
    (broadcastTo S4x200x200 (shapeCast S4x200x1 (totals x0) shapeCasts_S4x200_S4x200x1) broadcasts_S4x200x1_S4x200x200)

/-- The weighted rows plus the rows. -/
def outs (x0 : FVec Ideal S4x200x1024 .f32) : FVec Ideal S4x200x1024 .f32 :=
  addf (matmul mixDims none (truncf .bf16 (weights x0) bitsLt_bf16_f32) (truncf .bf16 x0 bitsLt_bf16_f32)
    (constant S4x200x1024 .f32 0x00000000#32)) x0

/-- The body's stored value is the last stage. -/
theorem payload_eq (x0 : Vec Ideal S4x200x1024 .f32) : k0_pay1 (F := Ideal) x0 = outs x0 := rfl

/-! ## Each stage at an index is the specification's function of the batch element -/

variable (x0 : FVec Ideal S4x200x1024 .f32) (b : Fin 4)

theorem norms_apply (i : Fin 200) : norms x0 (ix2 b i) = Attention.norm (Attention.slab x0 b) i :=
  congrArg Ideal.sqrt (sumFeatures_apply (mulf x0 x0) b i)

theorem grams_apply (i j : Fin 200) : grams x0 (ix3 b i j) = Attention.gram (Attention.slab x0 b) i j :=
  gramProduct_apply (truncf .bf16 x0 bitsLt_bf16_f32) b i j

theorem sims_apply (i j : Fin 200) : sims x0 (ix3 b i j) = Attention.sim (Attention.slab x0 b) i j := by
  have hc := Lib.Keepdims.castCol_broadcast_apply (norms x0) shapeCasts_S4x200_S4x200x1 broadcasts_S4x200x1_S4x200x200 b i j
  have hr := Lib.Keepdims.castRow_broadcast_apply (norms x0) shapeCasts_S4x200_S4x1x200 broadcasts_S4x1x200_S4x200x200 b i j
  show Ideal.div (grams x0 (ix3 b i j))
      (max (broadcastTo S4x200x200 (shapeCast S4x200x1 (norms x0) shapeCasts_S4x200_S4x200x1) broadcasts_S4x200x1_S4x200x200 (ix3 b i j)
          * broadcastTo S4x200x200 (shapeCast S4x1x200 (norms x0) shapeCasts_S4x200_S4x1x200) broadcasts_S4x1x200_S4x200x200 (ix3 b i j))
        Attention.floor) = _
  rw [hc, hr, grams_apply, norms_apply, norms_apply]
  rfl

theorem maxes_apply (i : Fin 200) : maxes x0 (ix2 b i) = Attention.rowMax (Attention.slab x0 b) i := by
  show max Attention.bottom
      (multiReduction (F := Ideal) .maximumf [2] S4x200 (sims x0) 0xFF800000#32 reduces_S4x200x200_S4x200 (.inl rfl) rfl (ix2 b i)) = _
  rw [maxColumns_apply]
  simp only [sims_apply]
  rfl

theorem expos_apply (i j : Fin 200) : expos x0 (ix3 b i j) = Attention.expo (Attention.slab x0 b) i j := by
  have hc := Lib.Keepdims.castCol_broadcast_apply (maxes x0) shapeCasts_S4x200_S4x200x1 broadcasts_S4x200x1_S4x200x200 b i j
  show Ideal.exp (sims x0 (ix3 b i j)
      - broadcastTo S4x200x200 (shapeCast S4x200x1 (maxes x0) shapeCasts_S4x200_S4x200x1) broadcasts_S4x200x1_S4x200x200 (ix3 b i j)) = _
  rw [hc, sims_apply, maxes_apply]
  rfl

theorem totals_apply (i : Fin 200) : totals x0 (ix2 b i) = Attention.total (Attention.slab x0 b) i := by
  refine (sumColumns_apply (expos x0) b i).trans ?_
  simp only [expos_apply]
  rfl

theorem weights_apply (i j : Fin 200) : weights x0 (ix3 b i j) = Attention.weight (Attention.slab x0 b) i j := by
  have hc := Lib.Keepdims.castCol_broadcast_apply (totals x0) shapeCasts_S4x200_S4x200x1 broadcasts_S4x200x1_S4x200x200 b i j
  show Ideal.div (expos x0 (ix3 b i j))
      (broadcastTo S4x200x200 (shapeCast S4x200x1 (totals x0) shapeCasts_S4x200_S4x200x1) broadcasts_S4x200x1_S4x200x200 (ix3 b i j)) = _
  rw [hc, expos_apply, totals_apply]
  rfl

/-- The body's result at (b, i, l) is attention of the block's batch element b at (i, l). -/
theorem outs_apply (i : Fin 200) (l : Fin 1024) : outs x0 (ix3 b i l) = Attention.out (Attention.slab x0 b) i l := by
  have hm := mixProduct_apply (truncf .bf16 (weights x0) bitsLt_bf16_f32) (truncf .bf16 x0 bitsLt_bf16_f32) b i l
  show matmul mixDims none (truncf .bf16 (weights x0) bitsLt_bf16_f32) (truncf .bf16 x0 bitsLt_bf16_f32)
      (constant (F := Ideal) S4x200x1024 .f32 0x00000000#32) (ix3 b i l) + x0 (ix3 b i l) = _
  rw [hm]
  simp only [truncf_apply, weights_apply]
  rfl

end Cert.KernelIdeal.Body

end
-- ==== Proof.KernelResult.lean ====
/-
  The kernel's result array. The grid has 64 points; point t fetches the four batch elements 4t .. 4t+3 of the
  argument and writes back the same four batch elements of the result. What point t writes back, at
  (b, i, l) of its block, is attention of batch element b of its input block at (i, l); that batch element is
  batch element 4t + b of the argument, and (b, i, l) of the block is entry (4t + b, i, l) of the array. So every
  point writes the block of ONE whole-array function, Attention.result of the argument, and since the 64 blocks
  cover the batch axis the array ends holding that function.
-/
import proofs.«156488_j76398878261339_1_alg».proof.Proof.Gen.KernelIdeal.Value
import proofs.«156488_j76398878261339_1_alg».proof.Proof.BodyAttention

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeroOffsets : (![0, 0, 0] : Fin 3 → Nat) = fun _ => 0 := funext fun a => by fin_cases a <;> rfl

/-- Attention of an array at an index whose coordinates are known. -/
theorem result_at (x : S256x200x1024.Idx → EReal) (I : S256x200x1024.Idx) (B : Fin 256) (i : Fin 200) (l : Fin 1024)
    (h0 : (I 0).val = B.val) (h1 : (I 1).val = i.val) (h2 : (I 2).val = l.val) :
    Attention.result x I = Attention.out (Attention.slab x B) i l := by
  obtain rfl : I = ix3 B i l :=
    funext fun a => Fin.ext (by match a with | ⟨0, _⟩ => exact h0 | ⟨1, _⟩ => exact h1 | ⟨2, _⟩ => exact h2)
  rfl

/-- Attention depends on the batch element's entries only. -/
theorem out_congr (X Y : Attention.Slab) (h : ∀ r l, X r l = Y r l) (i : Fin 200) (l : Fin 1024) :
    Attention.out X i l = Attention.out Y i l := by
  rw [show X = Y from funext fun r => funext fun l => h r l]

/-- The two index maps, decided over the grid: at every point the input block and the output block sit at the same
    place on the batch axis and at 0 on the other two, and the batch block index is at most 63. -/
theorem blockIndex : ∀ t : Fin cfg0.N, win0_0.index t (0 : Fin 3) = win0_1.index t (0 : Fin 3)
    ∧ win0_0.index t (1 : Fin 3) = 0
    ∧ win0_0.index t (2 : Fin 3) = 0
    ∧ win0_1.index t (1 : Fin 3) = 0
    ∧ win0_1.index t (2 : Fin 3) = 0
    ∧ win0_1.index t (0 : Fin 3) ≤ 63 :=
  (by decide +kernel : ∀ t : Fin grid0.N, _)

/-- Every batch block is some point's. -/
theorem blockOnto : ∀ q : Fin 64, ∃ t : Fin cfg0.N, win0_1.index t = ![q.val, 0, 0] :=
  (by decide +kernel : ∀ q : Fin 64, ∃ t : Fin grid0.N, win0_1.index t = ![q.val, 0, 0])

/-- What point t writes back is block t of attention of the argument array. -/
theorem flushed_eq (c : Dev nD) (t : Fin cfg0.N) :
    (dats m 0 c).flushed 1 t
      = ((cfg0.win 1).blk t).view.read (Elt Ideal) (Attention.result (B := 256) (V m c main_arg0)) := by
  rw [Value.flushed1]
  unfold out0_1
  rw [View.canon_unit_zero zeroOffsets]
  simp only [View.ld_unit_zero (S := S4x200x1024) zeroOffsets]
  rw [Body.payload_eq]
  obtain ⟨e0, e1, e2, e3, e4, e5⟩ := blockIndex t
  funext y
  obtain ⟨b, i, l, rfl⟩ : ∃ (b : Fin 4) (i : Fin 200) (l : Fin 1024), y = ix3 b i l := ⟨y 0, y 1, y 2, eq_ix3 y⟩
  show Body.outs (iblk m c 0 t) (ix3 b i l)
    = Attention.result (B := 256) (V m c main_arg0) (((cfg0.win 1).blk t).view.emb (ix3 b i l))
  have hb : b.val < 4 := b.isLt
  refine (Body.outs_apply (iblk m c 0 t) b i l).trans ?_
  refine Eq.trans ?_ (result_at (V m c main_arg0) (((cfg0.win 1).blk t).view.emb (ix3 b i l))
    ⟨win0_1.index t (0 : Fin 3) * 4 + b.val, by omega⟩ i l ?_ ?_ ?_).symm
  · refine out_congr _ _ (fun r l' => ?_) i l
    show V m c main_arg0 (((cfg0.win 0).blk t).view.emb (ix3 b r l'))
      = V m c main_arg0 (ix3 (⟨win0_1.index t (0 : Fin 3) * 4 + b.val, by omega⟩ : Fin 256) r l')
    refine congrArg (V m c main_arg0) (funext fun a => Fin.ext ?_)
    match a with
    | ⟨0, _⟩ => show win0_0.index t (0 : Fin 3) * 4 + 1 * b.val = win0_1.index t (0 : Fin 3) * 4 + b.val; omega
    | ⟨1, _⟩ => show win0_0.index t (1 : Fin 3) * 200 + 1 * r.val = r.val; omega
    | ⟨2, _⟩ => show win0_0.index t (2 : Fin 3) * 1024 + 1 * l'.val = l'.val; omega
  · show win0_1.index t (0 : Fin 3) * 4 + 1 * b.val = win0_1.index t (0 : Fin 3) * 4 + b.val; omega
  · show win0_1.index t (1 : Fin 3) * 200 + 1 * i.val = i.val; omega
  · show win0_1.index t (2 : Fin 3) * 1024 + 1 * l.val = l.val; omega

/-- An index of the array is in point t's block iff each coordinate is in the block's range on its axis. -/
theorem mem_block (t : Fin cfg0.N) (I : S256x200x1024.Idx) :
    I ∈ ((cfg0.win 1).blk t).view.set ↔ ∀ a : Fin 3, win0_1.index t a * S4x200x1024.size a ≤ (I a).val
      ∧ (I a).val < win0_1.index t a * S4x200x1024.size a + S4x200x1024.size a := by
  show I ∈ ((View.whole main_v0).slice (win0_1.rect t)).set ↔ _
  rw [View.set_slice_whole, Rect.mem_set_unit]
  exact Iff.rfl

/-- Every index of the array is in some point's block: batch element B is in block B / 4. -/
theorem covered (I : S256x200x1024.Idx) :
    ∃ t : Fin cfg0.N, (cfg0.win 1).flush t = true ∧ I ∈ ((cfg0.win 1).blk t).view.set := by
  have hI0 : (I 0).val < 256 := (I 0).isLt
  have hI1 : (I 1).val < 200 := (I 1).isLt
  have hI2 : (I 2).val < 1024 := (I 2).isLt
  obtain ⟨t, ht⟩ := blockOnto ⟨(I 0).val / 4, by omega⟩
  have q0 : win0_1.index t (0 : Fin 3) = (I 0).val / 4 := congrFun ht 0
  have q1 : win0_1.index t (1 : Fin 3) = 0 := congrFun ht 1
  have q2 : win0_1.index t (2 : Fin 3) = 0 := congrFun ht 2
  refine ⟨t, flush0_1 t, ?_⟩
  rw [mem_block]
  intro a
  match a with
  | ⟨0, _⟩ =>
    show win0_1.index t (0 : Fin 3) * 4 ≤ (I 0).val ∧ (I 0).val < win0_1.index t (0 : Fin 3) * 4 + 4
    omega
  | ⟨1, _⟩ =>
    show win0_1.index t (1 : Fin 3) * 200 ≤ (I 1).val ∧ (I 1).val < win0_1.index t (1 : Fin 3) * 200 + 200
    omega
  | ⟨2, _⟩ =>
    show win0_1.index t (2 : Fin 3) * 1024 ≤ (I 2).val ∧ (I 2).val < win0_1.index t (2 : Fin 3) * 1024 + 1024
    omega

/-- The result array after the run is attention of the argument array. -/
theorem final (c : Dev nD) :
    (dats m 0 c).arrAt 1 cfg0.N = Attention.result (B := 256) (V m c main_arg0) :=
  (dats m 0 c).arrAt_eq_of_cover 1 _ (fun t _ => flushed_eq m c t) covered

/-- The kernel's run: the result array ends at attention of the argument, the argument unchanged. -/
theorem run : θ_run defs (onTc (τ := τ) (main (F := Ideal))) ⟨m, fun _ => 0, ρ⟩ fun r => ∀ c : Dev nD,
      r.2.mem ((c : Thread nD τ).loc main_v0) = Attention.result (B := 256) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.ReferenceAttention.lean ====
/-
  What the reference computes. Its result array, read at (b, i, l), is cosine-similarity attention
  (Attention.out) of batch element b of its argument at (i, l); so the whole result is Attention.result of the
  argument.

  The reference is a straight line of whole-array operations. Each is read at an index from its operands at an
  index: a sum or a matrix product as a finite sum over the reduced or contracted coordinate, the row maximum as
  the fold of max over the columns, a norm broadcast to a column or a row as the norm at the surviving
  coordinates. The initial value 0 of each sum is absorbed (0 + s = s).
-/
import proofs.«156488_j76398878261339_1_alg».proof.Proof.Gen.ReferenceIdeal.Read
import proofs.«156488_j76398878261339_1_alg».proof.Proof.Attention
import Idealize.ShloMosaic.PureOps.Ideal.Laws
import Idealize.ShloMosaic.Lib.ValueIdx

noncomputable section

open scoped BigOperators

namespace Cert.ReferenceIdeal.Whole

open Cert.ReferenceIdeal Cert.ReferenceIdeal.Gen Cert.ReferenceIdeal.Read Idealize.ShloMosaic Idealize.ShloMosaic.ValueIdx

/-! ## The operand indices of each operation, by coordinates -/

section Indices
variable (b : Fin 256) (i j : Fin 200)

theorem featureIdx (k : Fin 1024) : idx_main_call0_v1 (ix2 b i) k = ix3 b i k :=
  funext fun a => Fin.ext (by match a with | ⟨0, _⟩ => rfl | ⟨1, _⟩ => rfl | ⟨2, _⟩ => rfl)
theorem gramLeftIdx (k : Fin 1024) : lidx_main_v1 (ix3 b i j) k = ix3 b i k :=
  funext fun a => Fin.ext (by match a with | ⟨0, _⟩ => rfl | ⟨1, _⟩ => rfl | ⟨2, _⟩ => rfl)
theorem gramRightIdx (k : Fin 1024) : ridx_main_v1 (ix3 b i j) k = ix3 b j k :=
  funext fun a => Fin.ext (by match a with | ⟨0, _⟩ => rfl | ⟨1, _⟩ => rfl | ⟨2, _⟩ => rfl)
theorem normColumnIdx : idx_main_v2 (idx_main_v4 (ix3 b i j)) = ix2 b i :=
  funext fun a => Fin.ext (by match a with | ⟨0, _⟩ => rfl | ⟨1, _⟩ => rfl)
theorem normRowIdx : idx_main_v3 (idx_main_v5 (ix3 b i j)) = ix2 b j :=
  funext fun a => Fin.ext (by match a with | ⟨0, _⟩ => rfl | ⟨1, _⟩ => rfl)
theorem maxColumnIdx : idx_main_v13 (idx_main_v14 (ix3 b i j)) = ix2 b i :=
  funext fun a => Fin.ext (by match a with | ⟨0, _⟩ => rfl | ⟨1, _⟩ => rfl)
theorem totalColumnIdx : idx_main_v18 (idx_main_v19 (ix3 b i j)) = ix2 b i :=
  funext fun a => Fin.ext (by match a with | ⟨0, _⟩ => rfl | ⟨1, _⟩ => rfl)
theorem columnIdx (k : Fin 200) : idx_main_v17 (ix2 b i) k = ix3 b i k :=
  funext fun a => Fin.ext (by match a with | ⟨0, _⟩ => rfl | ⟨1, _⟩ => rfl | ⟨2, _⟩ => rfl)
theorem mixLeftIdx (l : Fin 1024) (k : Fin 200) : lidx_main_v21 (ix3 b i l) k = ix3 b i k :=
  funext fun a => Fin.ext (by match a with | ⟨0, _⟩ => rfl | ⟨1, _⟩ => rfl | ⟨2, _⟩ => rfl)
theorem mixRightIdx (l : Fin 1024) (k : Fin 200) : ridx_main_v21 (ix3 b i l) k = ix3 b k l :=
  funext fun a => Fin.ext (by match a with | ⟨0, _⟩ => rfl | ⟨1, _⟩ => rfl | ⟨2, _⟩ => rfl)

end Indices

/-! ## Each stage at an index is the specification's function of the batch element -/

variable (x : FVec Ideal S256x200x1024 .f32) (b : Fin 256)

theorem norm_apply (i : Fin 200) : val_main_v0 (F := Ideal) x (ix2 b i) = Attention.norm (Attention.slab x b) i := by
  rw [val_main_v0_apply, val_main_call0_v1_apply]
  simp only [featureIdx]
  show Ideal.sqrt (Ideal.ofBits .f32 0x00000000#32 + ∑ k : Fin 1024, x (ix3 b i k) * x (ix3 b i k)) = _
  rw [Ideal.ofBits_zero_f32, zero_add]
  rfl

theorem sim_apply (i j : Fin 200) : val_main_v9 (F := Ideal) x (ix3 b i j) = Attention.sim (Attention.slab x b) i j := by
  rw [val_main_v9_apply, val_main_v1_apply, val_main_v8_apply, val_main_v6_apply, val_main_v4_apply, val_main_v2_apply,
    val_main_v5_apply, val_main_v3_apply, val_main_v7_apply, val_main_cst_apply, normColumnIdx, normRowIdx, norm_apply, norm_apply]
  simp only [gramLeftIdx, gramRightIdx]
  rfl

/-- The reference's row maximum at (b, i): the fold of max over the columns of the similarities. -/
theorem maxColumns_apply (i : Fin 200) :
    val_main_v10 (F := Ideal) x (ix2 b i)
      = (Finset.univ : Finset (Fin 200)).fold max Attention.bottom (fun j => val_main_v9 (F := Ideal) x (ix3 b i j)) := by
  have h : S256x200x200.Reduces [2] S256x200 := by decide
  unfold val_main_v10
  rw [Host.reduce_eq_fold_single (FloatOps.maximumf (F := Ideal) (φ := .f32)) (val_main_v9 (F := Ideal) x) _
    reducesTo_S256x200x200_S256x200_d2 h h_S_]
  have hf : (val_main_v9 (F := Ideal) x ∘ h.lift (ix2 b i)) = fun k : Fin 200 => val_main_v9 (F := Ideal) x (ix3 b i k) :=
    funext fun k => congrArg (val_main_v9 (F := Ideal) x)
      (funext fun a => Fin.ext (by match a with | ⟨0, _⟩ => rfl | ⟨1, _⟩ => rfl | ⟨2, _⟩ => rfl))
  exact congrArg (fun f => Finset.fold max Attention.bottom f (Finset.univ : Finset (Fin 200))) hf

theorem rowMax_apply (i : Fin 200) : val_main_v12 (F := Ideal) x (ix2 b i) = Attention.rowMax (Attention.slab x b) i := by
  rw [val_main_v12_apply, val_main_v11_apply, val_main_cst_1_apply, maxColumns_apply]
  simp only [sim_apply]
  rfl

theorem expo_apply (i j : Fin 200) : val_main_v16 (F := Ideal) x (ix3 b i j) = Attention.expo (Attention.slab x b) i j := by
  rw [val_main_v16_apply, val_main_v15_apply, val_main_v14_apply, val_main_v13_apply, maxColumnIdx, sim_apply, rowMax_apply]
  rfl

theorem total_apply (i : Fin 200) : val_main_v17 (F := Ideal) x (ix2 b i) = Attention.total (Attention.slab x b) i := by
  rw [val_main_v17_apply]
  simp only [columnIdx, expo_apply]
  show Ideal.ofBits .f32 0x00000000#32 + _ = _
  rw [Ideal.ofBits_zero_f32, zero_add]
  rfl

theorem weight_apply (i j : Fin 200) : val_main_v20 (F := Ideal) x (ix3 b i j) = Attention.weight (Attention.slab x b) i j := by
  rw [val_main_v20_apply, val_main_v19_apply, val_main_v18_apply, totalColumnIdx, expo_apply, total_apply]
  rfl

theorem out_apply (i : Fin 200) (l : Fin 1024) :
    val_main_v22 (F := Ideal) x (ix3 b i l) = Attention.out (Attention.slab x b) i l := by
  rw [val_main_v22_apply, val_main_v21_apply]
  simp only [mixLeftIdx, mixRightIdx, weight_apply]
  rfl

/-- The reference's result array is attention of each batch element of its argument. -/
theorem result_eq (x : FVec Ideal S256x200x1024 .f32) : val_main_v22 (F := Ideal) x = Attention.result x := by
  funext I
  obtain ⟨b, i, l, rfl⟩ : ∃ (b : Fin 256) (i : Fin 200) (l : Fin 1024), I = ix3 b i l := ⟨I 0, I 1, I 2, eq_ix3 I⟩
  exact out_apply x b i l

end Cert.ReferenceIdeal.Whole

end
-- ==== Proof.lean ====
/-
  A tiled kernel for cosine-similarity self-attention with a residual, against its whole-array reference, over
  the extended reals.

  The argument is 256 batch elements of 200 rows of 1024 features. For each batch element both programs compute
  the norms of the rows, the inner products of every two rows, the similarities (inner product over the floored
  product of norms), the softmax of each row of similarities, and the softmax weights applied to the rows plus
  the rows themselves (Attention.out). The kernel does this four batch elements at a time over a grid of 64
  points, narrowing to sixteen bits before each matrix product; the reference does it on the whole array at
  once. At the extended reals a narrowing is the identity, a matrix product into a zero accumulator is the sum of
  products, and a sum or a maximum over an axis does not depend on the order it is taken in, so each program's
  result array is Attention.result of the argument: the kernel's because every grid point writes the block of
  that one function and the blocks cover the array, the reference's stage by stage. No step uses that the inputs
  are finite: the two sides are the same expression, and only the associativity and commutativity of sums and of
  max are used.

  No operation of the kernel was rewritten when it was idealized, so the kernel read at the extended reals is its
  own idealization.
-/
import proofs.«156488_j76398878261339_1_alg».proof.Defs
import proofs.«156488_j76398878261339_1_alg».proof.Proof.Gen.Kernel
import proofs.«156488_j76398878261339_1_alg».proof.Proof.Gen.Kernel.Skeleton
import proofs.«156488_j76398878261339_1_alg».proof.Proof.Gen.Kernel.Launch
import proofs.«156488_j76398878261339_1_alg».proof.Proof.Gen.Kernel.Points
import proofs.«156488_j76398878261339_1_alg».proof.Proof.Gen.Kernel.Frame
import proofs.«156488_j76398878261339_1_alg».proof.Proof.Gen.KernelIdeal
import proofs.«156488_j76398878261339_1_alg».proof.Proof.Gen.KernelIdeal.Skeleton
import proofs.«156488_j76398878261339_1_alg».proof.Proof.Gen.KernelIdeal.Launch
import proofs.«156488_j76398878261339_1_alg».proof.Proof.Gen.KernelIdeal.Points
import proofs.«156488_j76398878261339_1_alg».proof.Proof.Gen.KernelIdeal.Frame
import proofs.«156488_j76398878261339_1_alg».proof.Proof.Gen.ReferenceIdeal
import proofs.«156488_j76398878261339_1_alg».proof.Proof.Gen.Pre_finite_inputs
import proofs.«156488_j76398878261339_1_alg».proof.Proof.Gen.KernelIdeal.Value
import proofs.«156488_j76398878261339_1_alg».proof.Proof.Gen.ReferenceIdeal.Run
import proofs.«156488_j76398878261339_1_alg».proof.Proof.Gen.ReferenceIdeal.Read
import proofs.«156488_j76398878261339_1_alg».proof.Proof.KernelResult
import proofs.«156488_j76398878261339_1_alg».proof.Proof.ReferenceAttention
import Idealize.ShloMosaic.Adequacy
import Idealize.ShloMosaic.Init

noncomputable section

namespace Cert.Proof

open Idealize.ShloMosaic Idealize.ShloMosaic.TcCoe Idealize.SL.Sem

/-- The kernel as printed runs to the end and leaves its argument as it found it. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten, so there is nothing to preserve. -/
theorem preserves : Cert.preserves_Kernel_KernelIdeal := trivial

/-- From arguments that agree, the kernel's result array and the reference's both end at attention of the argument. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Read.val_main_v22_eq m' c).trans
    ((Cert.ReferenceIdeal.Whole.result_eq _).trans (congrArg (Cert.Attention.result (B := 256)) (hagree c)))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
